-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S2048x512 : Shape := ⟨2, ![2048, 512]⟩
abbrev S512x1024 : Shape := ⟨2, ![512, 1024]⟩
abbrev S1x1024 : Shape := ⟨2, ![1, 1024]⟩
abbrev S2048x1024 : Shape := ⟨2, ![2048, 1024]⟩

abbrev nBuf : Space → Nat
  | .hbm => 11
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S8192x4096, .bf16⟩
  | .hbm, ⟨5, _⟩ => ⟨S4096x4096, .f32⟩
  | .hbm, ⟨6, _⟩ => ⟨S4096x4096, .bf16⟩
  | .hbm, ⟨7, _⟩ => ⟨S4096x4096, .bf16⟩
  | .hbm, ⟨8, _⟩ => ⟨S1x4096, .f32⟩
  | .hbm, ⟨9, _⟩ => ⟨S8192x4096, .f32⟩
  | .hbm, ⟨10, _⟩ => ⟨S4x2048x4096, .f32⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  bitsLt_bf16_f32 : FTy.bits .bf16 < FTy.bits .f32
  transposes_S4096x4096_S4096x4096_1_0 : S4096x4096.Transposes [1, 0] S4096x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .bf16 = 32 ∨ (Rect.block (s := S4096x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_v1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4x2048x4096, .f32⟩
  | .hbm, ⟨5, _⟩ => ⟨S1x1x4096, .f32⟩
  | .hbm, ⟨6, _⟩ => ⟨S4x2048x4096, .f32⟩
  | .hbm, ⟨7, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Cases.lean ====
/-
  What the kernel body leaves behind in each of its three control cases, as values (at any float instance).

  The body keeps a running total in a scratch block that lives across grid points. With `x0` the activation block,
  `x1` the weight block, `x2` the bias row and `acc` what the scratch held on entry:

    * first step of the contracted axis (case A): the scratch is cleared, then the block product is added, so it
      ends at `k0_pay2 x0 x1 k0_pay1` — "zero, plus this block's product";
    * a middle step (case B): the scratch ends at `k0_pay2 x0 x1 acc` — "the total so far, plus this block's product";
    * the last step (case C): the scratch ends the same way, and the output block is written as
      `k0_pay3 (k0_pay2 x0 x1 acc) x2` — "the finished total, plus the bias row".

  Each is read off the stores the run of the body found: every store covers its whole block from offset zero, so
  the last store of a buffer is what the buffer holds, and a load after a store reads what was stored.
-/
import proofs.«169187_j89489938580100_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

/-- The offset of every load and store of the body: the origin of its block. -/
theorem hz : (![0, 0] : Fin 2 → Nat) = fun _ => 0 := funext fun a => by fin_cases a <;> rfl

/-- A middle step leaves the total so far plus this block's product in the scratch. -/
theorem scratch_B (c : Dev nD) (i : grid0.Coords) (a3 : Memref sig .tc .vmem S2048x512 .bf16) (h3 : a3.IsWhole) (a4 : Memref sig .tc .vmem S512x1024 .bf16) (h4 : a4.IsWhole) (a5 : Memref sig .tc .vmem S1x1024 .f32) (h5 : a5.IsWhole) (a6 : Memref sig .tc .vmem S2048x1024 .f32) (h6 : a6.IsWhole) (a7 : Memref sig .tc .vmem S2048x1024 .f32) (h7 : a7.IsWhole) (hc0 : ¬cond0_0 i) (hc1 : ¬cond0_1 i)
    (x0 : Vec F S2048x512 .bf16) (x1 : Vec F S512x1024 .bf16) (x2 : Vec F S1x1024 .f32) (xs0 : Vec F S2048x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero hz]
  simp only [View.readAt_eq_ld, h3.read_unread, h4.read_unread, h7.read_unread, View.ld_unit_zero (S := S2048x512) hz,
    View.ld_unit_zero (S := S512x1024) hz, View.ld_unit_zero (S := S2048x1024) hz]

/-- The first step clears the scratch and then adds this block's product. -/
theorem scratch_A (c : Dev nD) (i : grid0.Coords) (a3 : Memref sig .tc .vmem S2048x512 .bf16) (h3 : a3.IsWhole) (a4 : Memref sig .tc .vmem S512x1024 .bf16) (h4 : a4.IsWhole) (a5 : Memref sig .tc .vmem S1x1024 .f32) (h5 : a5.IsWhole) (a6 : Memref sig .tc .vmem S2048x1024 .f32) (h6 : a6.IsWhole) (a7 : Memref sig .tc .vmem S2048x1024 .f32) (h7 : a7.IsWhole) (hc0 : cond0_0 i) (hc1 : ¬cond0_1 i)
    (x0 : Vec F S2048x512 .bf16) (x1 : Vec F S512x1024 .bf16) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S2048x1024) hz, View.readCov_unit_zero (S := S2048x1024) _ hz]
  simp only [View.readAt_eq_ld, h3.read_unread, h4.read_unread, View.ld_unit_zero (S := S2048x512) hz,
    View.ld_unit_zero (S := S512x1024) hz]

/-- The last step leaves the finished total in the scratch, -/
theorem scratch_C (c : Dev nD) (i : grid0.Coords) (a3 : Memref sig .tc .vmem S2048x512 .bf16) (h3 : a3.IsWhole) (a4 : Memref sig .tc .vmem S512x1024 .bf16) (h4 : a4.IsWhole) (a5 : Memref sig .tc .vmem S1x1024 .f32) (h5 : a5.IsWhole) (a6 : Memref sig .tc .vmem S2048x1024 .f32) (h6 : a6.IsWhole) (a7 : Memref sig .tc .vmem S2048x1024 .f32) (h7 : a7.IsWhole) (hc0 : ¬cond0_0 i) (hc1 : cond0_1 i)
    (x0 : Vec F S2048x512 .bf16) (x1 : Vec F S512x1024 .bf16) (x2 : Vec F S1x1024 .f32) (xs0 : Vec F S2048x1024 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S2048x512) hz,
    View.ld_unit_zero (S := S512x1024) hz, View.ld_unit_zero (S := S2048x1024) hz]

/-- and writes the output block: that total plus the bias row. -/
theorem output_C (c : Dev nD) (i : grid0.Coords) (a3 : Memref sig .tc .vmem S2048x512 .bf16) (h3 : a3.IsWhole) (a4 : Memref sig .tc .vmem S512x1024 .bf16) (h4 : a4.IsWhole) (a5 : Memref sig .tc .vmem S1x1024 .f32) (h5 : a5.IsWhole) (a6 : Memref sig .tc .vmem S2048x1024 .f32) (h6 : a6.IsWhole) (a7 : Memref sig .tc .vmem S2048x1024 .f32) (h7 : a7.IsWhole) (hc0 : ¬cond0_0 i) (hc1 : cond0_1 i)
    (x0 : Vec F S2048x512 .bf16) (x1 : Vec F S512x1024 .bf16) (x2 : Vec F S1x1024 .f32) (xs0 : Vec F S2048x1024 .f32) :
    out0_C_3 c i a3 h3 a4 h4 a5 h5 a6 h6 a7 h7 hc0 hc1 x0 x1 x2 xs0 = k0_pay3 (k0_pay2 x0 x1 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h5.read_unread, h7.read_unread,
    View.readCov_unit_zero (S := S2048x1024) _ hz, View.ld_unit_zero (S := S2048x512) hz,
    View.ld_unit_zero (S := S512x1024) hz, View.ld_unit_zero (S := S2048x1024) hz, View.ld_unit_zero (S := S1x1024) hz]

end Cert.KernelIdeal.Cases

end
-- ==== Proof.Payload.lean ====
/-
  The body's three stored values, read at one entry, on the extended reals.

    * the cleared scratch is zero at every entry;
    * "total plus this block's product" at entry (r, cc) is the total there plus the sum, over the 512 positions `kk`
      of the contracted axis inside the block, of activation (r, kk) times weight (kk, cc): the matrix unit's product
      into a zero accumulator is that plain sum, and the changes of float format around it are the identity;
    * "total plus the bias row" at entry (r, cc) is the total there plus entry cc of the one-row bias block, the row
      being repeated down the 2048 rows.
-/
import proofs.«169187_j89489938580100_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.KernelIdeal.Payload

open Cert.KernelIdeal Cert.KernelIdeal.Gen Idealize.ShloMosaic.ValueIdx

/-- The cleared scratch is zero everywhere. -/
theorem cleared_apply (y : S2048x1024.Idx) : k0_pay1 (F := Ideal) y = 0 := by
  unfold k0_pay1
  rw [shapeCast_self]
  exact Ideal.ofBits_zero_f32

/-- The left operand of the block product is read at the output's row and the contracted position. -/
theorem lhs_row (j : S2048x1024.Idx) (q : dot_S2048x512_S512x1024_S2048x1024_1_0_0_1_n_n.contr.Idx) :
    (dot_S2048x512_S512x1024_S2048x1024_1_0_0_1_n_n.lhsIdx j q 0).val = (j 0).val := by
  unfold DotDims.lhsIdx
  rw [dif_neg (show ¬(0 : Fin S2048x512.rank) ∈ dot_S2048x512_S512x1024_S2048x1024_1_0_0_1_n_n.lhsBatch by decide),
    dif_pos (show (0 : Fin S2048x512.rank) ∈ dot_S2048x512_S512x1024_S2048x1024_1_0_0_1_n_n.lhsNonContracting by decide)]
  rfl

theorem lhs_contracted (j : S2048x1024.Idx) (q : dot_S2048x512_S512x1024_S2048x1024_1_0_0_1_n_n.contr.Idx) :
    (dot_S2048x512_S512x1024_S2048x1024_1_0_0_1_n_n.lhsIdx j q 1).val = (q ⟨0, by decide⟩).val :=
  dot_S2048x512_S512x1024_S2048x1024_1_0_0_1_n_n.lhsIdx_val_of_single rfl j q

/-- The right operand is read at the contracted position and the output's column. -/
theorem rhs_contracted (j : S2048x1024.Idx) (q : dot_S2048x512_S512x1024_S2048x1024_1_0_0_1_n_n.contr.Idx) :
    (dot_S2048x512_S512x1024_S2048x1024_1_0_0_1_n_n.rhsIdx j q 0).val = (q ⟨0, by decide⟩).val :=
  dot_S2048x512_S512x1024_S2048x1024_1_0_0_1_n_n.rhsIdx_val_of_single rfl j q

theorem rhs_col (j : S2048x1024.Idx) (q : dot_S2048x512_S512x1024_S2048x1024_1_0_0_1_n_n.contr.Idx) :
    (dot_S2048x512_S512x1024_S2048x1024_1_0_0_1_n_n.rhsIdx j q 1).val = (j 1).val := by
  unfold DotDims.rhsIdx
  rw [dif_neg (show ¬(1 : Fin S512x1024.rank) ∈ dot_S2048x512_S512x1024_S2048x1024_1_0_0_1_n_n.rhsBatch by decide),
    dif_pos (show (1 : Fin S512x1024.rank) ∈ dot_S2048x512_S512x1024_S2048x1024_1_0_0_1_n_n.rhsNonContracting by decide)]
  rfl

/-- The block product into a zero accumulator, at entry (r, cc): the sum over the block's 512 contracted positions. -/
theorem blockProduct_apply (x0 : FVec Ideal S2048x512 .bf16) (x1 : FVec Ideal S512x1024 .bf16) (r : Fin 2048) (cc : Fin 1024) :
    matmul dot_S2048x512_S512x1024_S2048x1024_1_0_0_1_n_n none x0 x1 (constant (F := Ideal) S2048x1024 .f32 0x00000000#32) (ix2 r cc)
      = ∑ kk : Fin 512, x0 (ix2 r kk) * x1 (ix2 kk cc) := by
  simp only [matmul]
  rw [Ideal.matmul_constant_zero_apply,
    ← Equiv.sum_comp (ValueIdx.contrEquiv1 dot_S2048x512_S512x1024_S2048x1024_1_0_0_1_n_n 512 rfl rfl).symm]
  refine Finset.sum_congr rfl fun k _ => ?_
  have hk := ValueIdx.contrEquiv1_symm_val dot_S2048x512_S512x1024_S2048x1024_1_0_0_1_n_n 512 rfl rfl k
  have el : dot_S2048x512_S512x1024_S2048x1024_1_0_0_1_n_n.lhsIdx (ix2 r cc)
      ((ValueIdx.contrEquiv1 dot_S2048x512_S512x1024_S2048x1024_1_0_0_1_n_n 512 rfl rfl).symm k) = ix2 r k :=
    funext fun a => Fin.ext (by
      match a with
      | ⟨0, _⟩ => exact lhs_row _ _
      | ⟨1, _⟩ => exact (lhs_contracted _ _).trans hk)
  have er : dot_S2048x512_S512x1024_S2048x1024_1_0_0_1_n_n.rhsIdx (ix2 r cc)
      ((ValueIdx.contrEquiv1 dot_S2048x512_S512x1024_S2048x1024_1_0_0_1_n_n 512 rfl rfl).symm k) = ix2 k cc :=
    funext fun a => Fin.ext (by
      match a with
      | ⟨0, _⟩ => exact (rhs_contracted _ _).trans hk
      | ⟨1, _⟩ => exact rhs_col _ _)
  rw [el, er]

/-- "Total plus this block's product", at entry (r, cc). -/
theorem accumulate_apply (x0 : Vec Ideal S2048x512 .bf16) (x1 : Vec Ideal S512x1024 .bf16) (acc : Vec Ideal S2048x1024 .f32)
    (r : Fin 2048) (cc : Fin 1024) :
    k0_pay2 (F := Ideal) x0 x1 acc (ix2 r cc) = acc (ix2 r cc) + ∑ kk : Fin 512, x0 (ix2 r kk) * x1 (ix2 kk cc) := by
  unfold k0_pay2
  simp only [shapeCast_self]
  rw [addf_apply]
  exact congrArg (acc (ix2 r cc) + ·) (blockProduct_apply x0 x1 r cc)

/-- The bias row repeated down the rows, at entry (r, cc), is entry cc of the row. -/
theorem biasRows_apply (x2 : S1x1024.Idx → EReal) (r : Fin 2048) (cc : Fin 1024) :
    broadcastTo S2048x1024 x2 broadcasts_S1x1024_S2048x1024 (ix2 r cc) = x2 (ix2 (0 : Fin 1) cc) := by
  exact broadcastTo_apply x2 broadcasts_S1x1024_S2048x1024 (ix2 r cc) (ix2 (0 : Fin 1) cc) (fun a => match a with
    | ⟨0, _⟩ => by show (0 : Nat) = if (1 : Nat) = 1 then 0 else r.val; rw [if_pos rfl]
    | ⟨1, _⟩ => by show cc.val = if (1024 : Nat) = 1 then 0 else cc.val; rw [if_neg (by decide)])

/-- "Total plus the bias row", at entry (r, cc). -/
theorem addBias_apply (acc : Vec Ideal S2048x1024 .f32) (x2 : Vec Ideal S1x1024 .f32) (r : Fin 2048) (cc : Fin 1024) :
    k0_pay3 (F := Ideal) acc x2 (ix2 r cc) = acc (ix2 r cc) + x2 (ix2 (0 : Fin 1) cc) := by
  unfold k0_pay3
  simp only [shapeCast_self]
  rw [addf_apply, biasRows_apply]

end Cert.KernelIdeal.Payload

end
-- ==== Proof.BlockSums.lean ====
/-
  Sums cut into consecutive blocks, in any additive commutative monoid (so in particular on the extended reals,
  where no finiteness is needed: only associativity and commutativity of addition are used).

  A sum over 4096 consecutive indices is the sum over 8 blocks of the sums over the 512 indices inside each block,
  the index of entry `kk` of block `kb` being `kb * 512 + kk`; and the sum of the blocks up to `k` is built one
  block at a time: it is the first block at `k = 0`, it grows by block `k` from the sum up to `k - 1`, and at the
  last block it is the sum of all blocks.
-/
import Mathlib.Algebra.BigOperators.Fin
import Mathlib.Algebra.BigOperators.Group.Finset.Basic
import Mathlib.Logic.Equiv.Fin.Basic
import Mathlib.Data.Fintype.BigOperators

namespace Cert.BlockSums

open Finset

variable {M : Type*} [AddCommMonoid M]

/-- The index of entry `kk` of block `kb`, of 8 blocks of 512 consecutive indices. -/
def blockIdx (kb : Fin 8) (kk : Fin 512) : Fin 4096 := ⟨kb.val * 512 + kk.val, by omega⟩

@[simp] theorem blockIdx_val (kb : Fin 8) (kk : Fin 512) : (blockIdx kb kk).val = kb.val * 512 + kk.val := rfl

/-- A sum over `Fin 4096` is the sum over the 8 blocks of the sums inside each block. -/
theorem sum_blocks (f : Fin 4096 → M) :
    ∑ d : Fin 4096, f d = ∑ kb : Fin 8, ∑ kk : Fin 512, f (blockIdx kb kk) := by
  rw [← Fintype.sum_prod_type' (f := fun kb kk => f (blockIdx kb kk))]
  refine (Fintype.sum_equiv (finProdFinEquiv (m := 8) (n := 512)) _ _ (fun p => ?_)).symm
  refine congrArg f (Fin.ext ?_)
  show p.1.val * 512 + p.2.val = p.2.val + 512 * p.1.val
  omega

/-- The sum of the blocks up to and including block `k`. -/
def upTo (g : Fin 8 → M) (k : Fin 8) : M := ∑ kb ∈ univ.filter (fun kb : Fin 8 => kb ≤ k), g kb

/-- Up to the first block there is only the first block. -/
theorem upTo_zero (g : Fin 8 → M) (k : Fin 8) (h : k.val = 0) : upTo g k = g k := by
  have e : univ.filter (fun kb : Fin 8 => kb ≤ k) = {k} := by
    ext a; simp only [mem_filter, mem_univ, true_and, mem_singleton, Fin.le_def, Fin.ext_iff]; omega
  rw [upTo, e, sum_singleton]

/-- The sum up to block `k` is the sum up to the block before it, plus block `k`. -/
theorem upTo_succ (g : Fin 8 → M) (k' k : Fin 8) (h : k'.val + 1 = k.val) : upTo g k = upTo g k' + g k := by
  have e : univ.filter (fun kb : Fin 8 => kb ≤ k) = insert k (univ.filter (fun kb : Fin 8 => kb ≤ k')) := by
    ext a; simp only [mem_filter, mem_univ, true_and, mem_insert, Fin.le_def, Fin.ext_iff]; omega
  have hn : k ∉ univ.filter (fun kb : Fin 8 => kb ≤ k') := by
    simp only [mem_filter, mem_univ, true_and, Fin.le_def]; omega
  rw [upTo, e, sum_insert hn, add_comm]; rfl

/-- Up to the last block, it is the sum of all the blocks. -/
theorem upTo_last (g : Fin 8 → M) (k : Fin 8) (h : k.val = 7) : upTo g k = ∑ kb : Fin 8, g kb := by
  have e : univ.filter (fun kb : Fin 8 => kb ≤ k) = univ := by
    ext a; simp only [mem_filter, mem_univ, true_and, Fin.le_def, iff_true]; omega
  rw [upTo, e]

end Cert.BlockSums
-- ==== Proof.Spec.lean ====
/-
  The function both programs compute, on the extended reals.

  With `X` the activations as a matrix of 8192 rows (the 4 × 2048 leading positions laid out row-major) and 4096
  columns, `WT` the signed weights with the contracted index FIRST, and `Bv` the bias as a one-row matrix, the result
  at row `p` and output column `o` is

      (∑ d : Fin 4096, X (p, d) · WT (d, o)) + Bv (0, o).

  The kernel reaches it by blocks of the contracted index: the sum over the 512 indices of block `kb` is `blockDot`,
  the running total of the blocks up to `k` is `partialDot`, and the total of all 8 blocks is the whole sum
  (`partialDot_last`): only associativity and commutativity of addition are used, so nothing here asks the entries
  to be finite.
-/
import Idealize.ShloMosaic.PureOps.Ideal
import Idealize.ShloMosaic.Lib.ValueIdx
import proofs.«169187_j89489938580100_2_alg».proof.Proof.BlockSums

noncomputable section

namespace Cert.Spec

open Idealize.ShloMosaic Idealize.ShloMosaic.ValueIdx Cert.BlockSums

/-- The activations as a matrix, the signed weights with the contracted index first, the bias as one row. -/
abbrev MatX := (⟨2, ![8192, 4096]⟩ : Shape).Idx → EReal
abbrev MatW := (⟨2, ![4096, 4096]⟩ : Shape).Idx → EReal
abbrev RowB := (⟨2, ![1, 4096]⟩ : Shape).Idx → EReal

/-- Row `r` of row tile `i` (4 tiles of 2048 rows), and column `cc` of column tile `j` (4 tiles of 1024 columns). -/
def tileRow (i : Fin 4) (r : Fin 2048) : Fin 8192 := ⟨i.val * 2048 + r.val, by omega⟩
def tileCol (j : Fin 4) (cc : Fin 1024) : Fin 4096 := ⟨j.val * 1024 + cc.val, by omega⟩

@[simp] theorem tileRow_val (i : Fin 4) (r : Fin 2048) : (tileRow i r).val = i.val * 2048 + r.val := rfl
@[simp] theorem tileCol_val (j : Fin 4) (cc : Fin 1024) : (tileCol j cc).val = j.val * 1024 + cc.val := rfl

/-- The whole contraction at row `p`, column `o`. -/
def dot (X : MatX) (WT : MatW) (p : Fin 8192) (o : Fin 4096) : EReal :=
  ∑ d : Fin 4096, X (ix2 p d) * WT (ix2 d o)

/-- The part of the contraction inside block `kb` of the contracted index. -/
def blockDot (X : MatX) (WT : MatW) (p : Fin 8192) (o : Fin 4096) (kb : Fin 8) : EReal :=
  ∑ kk : Fin 512, X (ix2 p (blockIdx kb kk)) * WT (ix2 (blockIdx kb kk) o)

/-- The running total of the blocks up to and including block `k`. -/
def partialDot (X : MatX) (WT : MatW) (p : Fin 8192) (o : Fin 4096) (k : Fin 8) : EReal :=
  upTo (blockDot X WT p o) k

/-- The result: the contraction plus the bias of the column. -/
def out (X : MatX) (WT : MatW) (Bv : RowB) (p : Fin 8192) (o : Fin 4096) : EReal :=
  dot X WT p o + Bv (ix2 (0 : Fin 1) o)

theorem partialDot_zero (X : MatX) (WT : MatW) (p : Fin 8192) (o : Fin 4096) (k : Fin 8) (h : k.val = 0) :
    partialDot X WT p o k = blockDot X WT p o k := upTo_zero _ k h

theorem partialDot_succ (X : MatX) (WT : MatW) (p : Fin 8192) (o : Fin 4096) (k' k : Fin 8) (h : k'.val + 1 = k.val) :
    partialDot X WT p o k = partialDot X WT p o k' + blockDot X WT p o k := upTo_succ _ k' k h

/-- After the last block the running total is the whole contraction. -/
theorem partialDot_last (X : MatX) (WT : MatW) (p : Fin 8192) (o : Fin 4096) (k : Fin 8) (h : k.val = 7) :
    partialDot X WT p o k = dot X WT p o := by
  rw [partialDot, upTo_last _ k h, dot, sum_blocks]; rfl

end Cert.Spec

end
-- ==== Proof.Blocks.lean ====
/-
  Which part of each staged array a grid point works on.

  The grid has 4 × 4 × 8 points, the contracted axis fastest: point number `t` is row tile `t / 32`, column tile
  `(t / 8) % 4`, contraction step `t % 8`. At that point the body is handed

    * the activation block: rows of the row tile, contracted positions of the step;
    * the weight block: contracted positions of the step, columns of the column tile;
    * the bias block: the one row, columns of the column tile;

  and its output block is the row tile's rows by the column tile's columns. A block's coordinate along an axis is
  always block index × block size + the coordinate inside the block.
-/
import proofs.«169187_j89489938580100_2_alg».proof.Proof.Gen.KernelIdeal.Frame
import proofs.«169187_j89489938580100_2_alg».proof.Proof.Spec
import Idealize.ShloMosaic.Lib.Pipeline.Value
import Idealize.ShloMosaic.Lib.ValueIdx

noncomputable section

open Idealize.ShloMosaic Idealize.ShloMosaic.TcCoe Idealize.SL.Sem

namespace Cert.KernelIdeal.Blocks

open Cert.KernelIdeal Cert.KernelIdeal.Gen Idealize.ShloMosaic.ValueIdx Cert.Spec Cert.BlockSums

variable (m : (ℓ : Loc nD τ sig) → Buf (Elt Ideal) ℓ)

theorem lt128 (t : Fin cfg0.N) : t.val < 128 := lt_of_lt_of_eq t.isLt (show cfg0.N = 128 from N_0)

/-- The row tile, the column tile and the contraction step of a grid point. -/
def rowTile (t : Fin cfg0.N) : Fin 4 := ⟨t.val / 32, by have := lt128 t; omega⟩
def colTile (t : Fin cfg0.N) : Fin 4 := ⟨(t.val / 8) % 4, by omega⟩
def step (t : Fin cfg0.N) : Fin 8 := ⟨t.val % 8, by omega⟩

@[simp] theorem rowTile_val (t : Fin cfg0.N) : (rowTile t).val = t.val / 32 := rfl
@[simp] theorem colTile_val (t : Fin cfg0.N) : (colTile t).val = (t.val / 8) % 4 := rfl
@[simp] theorem step_val (t : Fin cfg0.N) : (step t).val = t.val % 8 := rfl

/-- The four windows' block indices at every point, decided over the grid. -/
theorem idx_facts : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = (t.val / 8) % 4
    ∧ win0_2.index t (0 : Fin 2) = 0 ∧ win0_2.index t (1 : Fin 2) = (t.val / 8) % 4
    ∧ win0_3.index t (0 : Fin 2) = t.val / 32 ∧ win0_3.index t (1 : Fin 2) = (t.val / 8) % 4 :=
  (by decide +kernel : ∀ t : Fin grid0.N, _)

/-- The three staged arrays as the region finds them. -/
abbrev acts (c : Dev nD) : MatX := V m c main_v1
abbrev wts (c : Dev nD) : MatW := V m c main_v4
abbrev biasRow (c : Dev nD) : RowB := V m c main_v5

/-- The activation block at a point, at entry (r, kk). -/
theorem actBlock_apply (c : Dev nD) (t : Fin cfg0.N) (r : Fin 2048) (kk : Fin 512) :
    (iblk m c 0 t : S2048x512.Idx → EReal) (ix2 r kk) = acts m c (ix2 (tileRow (rowTile t) r) (blockIdx (step t) kk)) := by
  obtain ⟨e0, e1, -⟩ := idx_facts t
  unfold iblk
  rw [View.read_apply]
  refine congrArg (V m c main_v1) (funext fun a => Fin.ext ?_)
  match a with
  | ⟨0, _⟩ => show win0_0.index t (0 : Fin 2) * 2048 + 1 * r.val = t.val / 32 * 2048 + r.val; rw [e0]; omega
  | ⟨1, _⟩ => show win0_0.index t (1 : Fin 2) * 512 + 1 * kk.val = t.val % 8 * 512 + kk.val; rw [e1]; omega

/-- The weight block at a point, at entry (kk, cc). -/
theorem wtBlock_apply (c : Dev nD) (t : Fin cfg0.N) (kk : Fin 512) (cc : Fin 1024) :
    (iblk m c 1 t : S512x1024.Idx → EReal) (ix2 kk cc) = wts m c (ix2 (blockIdx (step t) kk) (tileCol (colTile t) cc)) := by
  obtain ⟨-, -, e2, e3, -⟩ := idx_facts t
  unfold iblk
  rw [View.read_apply]
  refine congrArg (V m c main_v4) (funext fun a => Fin.ext ?_)
  match a with
  | ⟨0, _⟩ => show win0_1.index t (0 : Fin 2) * 512 + 1 * kk.val = t.val % 8 * 512 + kk.val; rw [e2]; omega
  | ⟨1, _⟩ => show win0_1.index t (1 : Fin 2) * 1024 + 1 * cc.val = t.val / 8 % 4 * 1024 + cc.val; rw [e3]; omega

/-- The bias block at a point, at entry (0, cc). -/
theorem biasBlock_apply (c : Dev nD) (t : Fin cfg0.N) (cc : Fin 1024) :
    (iblk m c 2 t : S1x1024.Idx → EReal) (ix2 (0 : Fin 1) cc) = biasRow m c (ix2 (0 : Fin 1) (tileCol (colTile t) cc)) := by
  obtain ⟨-, -, -, -, e4, e5, -⟩ := idx_facts t
  unfold iblk
  rw [View.read_apply]
  refine congrArg (V m c main_v5) (funext fun a => Fin.ext ?_)
  match a with
  | ⟨0, _⟩ => show win0_2.index t (0 : Fin 2) * 1 + 1 * 0 = 0; rw [e4]
  | ⟨1, _⟩ => show win0_2.index t (1 : Fin 2) * 1024 + 1 * cc.val = t.val / 8 % 4 * 1024 + cc.val; rw [e5]; omega

end Cert.KernelIdeal.Blocks

end
-- ==== Proof.Invariant.lean ====
/-
  The running total, point by point.

  After grid point `t` (row tile `I`, column tile `J`, contraction step `K`) the scratch block holds, at entry
  (r, cc), the sum of the block products of steps 0 … K for row `I * 2048 + r` and column `J * 1024 + cc`
  (`running`). This is an induction along the points: at a first step (K = 0) the scratch is cleared and gets the
  first block product, whatever it held before; at any later step the point before is the same tile at step K - 1
  and the body adds block K to what it left. At a last step (K = 7) the output block is written as the finished
  total plus the bias, which is the whole contraction plus the bias (`output_eq`).
-/
import proofs.«169187_j89489938580100_2_alg».proof.Proof.Cases
import proofs.«169187_j89489938580100_2_alg».proof.Proof.Payload
import proofs.«169187_j89489938580100_2_alg».proof.Proof.Blocks

noncomputable section

open Idealize.ShloMosaic Idealize.ShloMosaic.TcCoe Idealize.SL.Sem

namespace Cert.KernelIdeal.Invariant

open Cert.KernelIdeal Cert.KernelIdeal.Gen Idealize.ShloMosaic.ValueIdx Cert.Spec Cert.BlockSums Cert.KernelIdeal.Blocks

variable (m : (ℓ : Loc nD τ sig) → Buf (Elt Ideal) ℓ)

/-- What the scratch holds after point `t`: the running total up to the point's step, on the point's tile. -/
def running (c : Dev nD) (t : Fin cfg0.N) : Vec Ideal S2048x1024 .f32 := fun y =>
  partialDot (acts m c) (wts m c) (tileRow (rowTile t) (y 0)) (tileCol (colTile t) (y 1)) (step t)

theorem running_apply (c : Dev nD) (t : Fin cfg0.N) (r : Fin 2048) (cc : Fin 1024) :
    running m c t (ix2 r cc) = partialDot (acts m c) (wts m c) (tileRow (rowTile t) r) (tileCol (colTile t) cc) (step t) := rfl

/-- The block product the body forms at a point is the point's block of the contraction. -/
theorem blockProduct_eq (c : Dev nD) (t : Fin cfg0.N) (x0 : Vec Ideal S2048x512 .bf16) (x1 : Vec Ideal S512x1024 .bf16)
    (h0 : x0 = iblk m c 0 t) (h1 : x1 = iblk m c 1 t) (r : Fin 2048) (cc : Fin 1024) :
    (∑ kk : Fin 512, x0 (ix2 r kk) * x1 (ix2 kk cc))
      = blockDot (acts m c) (wts m c) (tileRow (rowTile t) r) (tileCol (colTile t) cc) (step t) := by
  subst h0 h1
  unfold blockDot
  exact Finset.sum_congr rfl fun kk _ => by rw [actBlock_apply, wtBlock_apply]

/-- A first step: cleared, then the first block product. -/
theorem first_step (c : Dev nD) (t : Fin cfg0.N) (h0 : t.val % 8 = 0) :
    k0_pay2 (F := Ideal) (iblk m c 0 t) (iblk m c 1 t) (k0_pay1 (F := Ideal)) = running m c t := by
  funext y
  obtain ⟨r, cc, rfl⟩ : ∃ (r : Fin 2048) (cc : Fin 1024), y = ix2 r cc := ⟨y 0, y 1, eq_ix2 y⟩
  refine (Payload.accumulate_apply (iblk m c 0 t) (iblk m c 1 t) (k0_pay1 (F := Ideal)) r cc).trans ?_
  rw [Payload.cleared_apply, zero_add, running_apply]
  exact (blockProduct_eq m c t (iblk m c 0 t) (iblk m c 1 t) rfl rfl r cc).trans (partialDot_zero _ _ _ _ (step t) h0).symm

/-- A later step: the point before is the same tile one step earlier, and this step's block is added. -/
theorem later_step (c : Dev nD) (t t' : Fin cfg0.N) (ht : t'.val + 1 = t.val) (h0 : ¬t.val % 8 = 0) :
    k0_pay2 (F := Ideal) (iblk m c 0 t) (iblk m c 1 t) (running m c t') = running m c t := by
  have hN := lt128 t
  funext y
  obtain ⟨r, cc, rfl⟩ : ∃ (r : Fin 2048) (cc : Fin 1024), y = ix2 r cc := ⟨y 0, y 1, eq_ix2 y⟩
  refine (Payload.accumulate_apply (iblk m c 0 t) (iblk m c 1 t) (running m c t') r cc).trans ?_
  have eI : rowTile t' = rowTile t := Fin.ext (by simp only [rowTile_val]; omega)
  have eJ : colTile t' = colTile t := Fin.ext (by simp only [colTile_val]; omega)
  rw [blockProduct_eq m c t (iblk m c 0 t) (iblk m c 1 t) rfl rfl r cc, running_apply, running_apply, eI, eJ]
  exact (partialDot_succ _ _ _ _ (step t') (step t) (by simp only [step_val]; omega)).symm

/-- The scratch after a first step. -/
theorem at_first (c : Dev nD) (t : Fin cfg0.N) (h0 : t.val % 8 = 0) : (outsAt0 m c t.val t.isLt).2 = running m c t := by
  have h1 : ¬t.val % 8 = 7 := by omega
  rw [outsAt0_A m c t h0 h1]
  dsimp only
  exact (Cases.scratch_A (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t)).trans (first_step m c t h0)

/-- The scratch after a later step, given what the point before left. -/
theorem at_later (c : Dev nD) (t : Fin cfg0.N) (h0 : ¬t.val % 8 = 0)
    (ih : (outsAt0 m c (t.val - 1) (Nat.lt_of_le_of_lt (Nat.sub_le _ _) t.isLt)).2
      = running m c ⟨t.val - 1, Nat.lt_of_le_of_lt (Nat.sub_le _ _) t.isLt⟩) :
    (outsAt0 m c t.val t.isLt).2 = running m c t := by
  have hpos : t.val - 1 + 1 = t.val := by omega
  by_cases h1 : t.val % 8 = 7
  · rw [outsAt0_C m c t h0 h1]
    dsimp only
    rw [ih]
    exact (Cases.scratch_C (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) (running m c ⟨t.val - 1, Nat.lt_of_le_of_lt (Nat.sub_le _ _) t.isLt⟩)).trans
      (later_step m c t ⟨t.val - 1, Nat.lt_of_le_of_lt (Nat.sub_le _ _) t.isLt⟩ hpos h0)
  · rw [outsAt0_B m c t h0 h1]
    dsimp only
    rw [ih]
    exact (Cases.scratch_B (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) (running m c ⟨t.val - 1, Nat.lt_of_le_of_lt (Nat.sub_le _ _) t.isLt⟩)).trans
      (later_step m c t ⟨t.val - 1, Nat.lt_of_le_of_lt (Nat.sub_le _ _) t.isLt⟩ hpos h0)

/-- THE INVARIANT: after every point the scratch holds the running total of the point's tile up to its step. -/
theorem scratch_eq (c : Dev nD) : ∀ (n : ℕ) (h : n < cfg0.N), (outsAt0 m c n h).2 = running m c ⟨n, h⟩
  | 0, h => at_first m c ⟨0, h⟩ rfl
  | n + 1, h => by
    by_cases h0 : (n + 1) % 8 = 0
    · exact at_first m c ⟨n + 1, h⟩ h0
    · exact at_later m c ⟨n + 1, h⟩ h0 (scratch_eq c n (Nat.lt_of_succ_lt h))

/-- What a last step writes to the output block: the whole contraction plus the bias, on the point's tile. -/
theorem output_eq (c : Dev nD) (t : Fin cfg0.N) (h1 : t.val % 8 = 7) :
    (outsAt0 m c t.val t.isLt).1
      = fun y => Spec.out (acts m c) (wts m c) (biasRow m c) (tileRow (rowTile t) (y 0)) (tileCol (colTile t) (y 1)) := by
  have h0 : ¬t.val % 8 = 0 := by omega
  have hpos : t.val - 1 + 1 = t.val := by omega
  rw [outsAt0_C m c t h0 h1]
  dsimp only
  rw [scratch_eq m c (t.val - 1) (Nat.lt_of_le_of_lt (Nat.sub_le _ _) t.isLt)]
  refine (Cases.output_C (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) (running m c ⟨t.val - 1, Nat.lt_of_le_of_lt (Nat.sub_le _ _) t.isLt⟩)).trans ?_
  rw [later_step m c t ⟨t.val - 1, Nat.lt_of_le_of_lt (Nat.sub_le _ _) t.isLt⟩ hpos h0]
  funext y
  obtain ⟨r, cc, rfl⟩ : ∃ (r : Fin 2048) (cc : Fin 1024), y = ix2 r cc := ⟨y 0, y 1, eq_ix2 y⟩
  refine (Payload.addBias_apply (running m c t) (iblk m c 2 t) r cc).trans ?_
  rw [biasBlock_apply, running_apply, partialDot_last _ _ _ _ (step t) h1]
  rfl

end Cert.KernelIdeal.Invariant

end
-- ==== Proof.Entry.lean ====
/-
  What the region finds in the three arrays it stages, in terms of the program's arguments (on the extended reals).

  Before the region the host lays the activations out as a matrix of 8192 = 4 × 2048 rows (row-major, so row
  `b * 2048 + s` is position `(b, s)`), takes the sign of the weights and transposes them so that the contracted
  index comes first, and views the bias as a one-row matrix. The two changes of float format are the identity on
  the extended reals.
-/
import proofs.«169187_j89489938580100_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem

namespace Cert.KernelIdeal.Entry

open Cert.KernelIdeal Cert.KernelIdeal.Gen Idealize.ShloMosaic.ValueIdx

variable (m : (ℓ : Loc nD τ sig) → Buf (Elt Ideal) ℓ)

/-- The activation matrix the region stages: the first argument reshaped (and its format changed). -/
theorem acts_eq (c : Dev nD) : (V m c main_v1 : S8192x4096.Idx → EReal)
    = truncf (F := Ideal) .bf16 (shapeCast S8192x4096 (m ((c : Thread nD τ).loc main_arg0) : FVec Ideal S4x2048x4096 .f32) shapeCasts_S4x2048x4096_S8192x4096) bitsLt_bf16_f32 := by
  show StableHlo.after hostOps0 (fun b => m (c, b)) (Proc.devRef .tc main_v1) = _
  after_results
  rfl

/-- Row `b * 2048 + s` of the activation matrix is position `(b, s)` of the first argument. -/
theorem acts_apply (c : Dev nD) (p : Fin 8192) (d : Fin 4096) (b : Fin 4) (s : Fin 2048) (hp : p.val = b.val * 2048 + s.val) :
    (V m c main_v1 : S8192x4096.Idx → EReal) (ix2 p d) = m ((c : Thread nD τ).loc main_arg0) (ix3 b s d) := by
  rw [acts_eq, truncf_apply]
  exact shapeCast_apply _ _ (ix2 p d) (ix3 b s d) (by
    rw [Shape.rowMajor_val_three, Shape.rowMajor_val_two]
    show (b.val * 2048 + s.val) * 4096 + d.val = p.val * 4096 + d.val
    rw [hp])

/-- The sign of the second argument, entry by entry. -/
abbrev signedWeights (c : Dev nD) : FVec Ideal S4096x4096 .f32 :=
  @Host.sign Ideal _ S4096x4096 .f32 (m ((c : Thread nD τ).loc main_arg1))

/-- The weight matrix the region stages: the sign of the second argument, transposed (and its format changed). -/
theorem wts_eq (c : Dev nD) : (V m c main_v4 : S4096x4096.Idx → EReal)
    = transpose S4096x4096 [1, 0] (truncf (F := Ideal) .bf16 (signedWeights m c) bitsLt_bf16_f32) transposes_S4096x4096_S4096x4096_1_0 := by
  show StableHlo.after hostOps0 (fun b => m (c, b)) (Proc.devRef .tc main_v4) = _
  after_results

/-- Entry (d, o) of the staged weights is the sign of entry (o, d) of the second argument. -/
theorem wts_apply (c : Dev nD) (d : Fin 4096) (o : Fin 4096) :
    (V m c main_v4 : S4096x4096.Idx → EReal) (ix2 d o) = signedWeights m c (ix2 o d) := by
  rw [wts_eq]
  refine (transpose_apply _ _ _ (ix2 d o) (ix2 o d) (fun b => match b with | ⟨0, _⟩ => rfl | ⟨1, _⟩ => rfl)).trans ?_
  rfl

/-- The bias row the region stages: the third argument viewed as one row. -/
theorem biasRow_eq (c : Dev nD) : (V m c main_v5 : S1x4096.Idx → EReal)
    = shapeCast S1x4096 (m ((c : Thread nD τ).loc main_arg2) : FVec Ideal S4096 .f32) shapeCasts_S4096_S1x4096 := by
  show StableHlo.after hostOps0 (fun b => m (c, b)) (Proc.devRef .tc main_v5) = _
  after_results
  rfl

theorem biasRow_apply (c : Dev nD) (o : Fin 4096) :
    (V m c main_v5 : S1x4096.Idx → EReal) (ix2 (0 : Fin 1) o) = m ((c : Thread nD τ).loc main_arg2) (ix1 o) := by
  rw [biasRow_eq]
  exact shapeCast_apply _ _ (ix2 (0 : Fin 1) o) (ix1 o) (by
    rw [Shape.rowMajor_val_one, Shape.rowMajor_val_two]
    show o.val = 0 * 4096 + o.val
    omega)

end Cert.KernelIdeal.Entry

end
-- ==== Proof.Result.lean ====
/-
  The result both programs end with, as one function of the three arguments (on the extended reals):
  at position (b, s) and output column o,

      (∑ d : Fin 4096, x (b, s, d) · w (o, d)) + bias o,

  where `w` is the weight array AFTER the sign has been taken (both programs take the same sign of the same
  argument, so it stays a name here).
-/
import Idealize.ShloMosaic.PureOps.Ideal
import Idealize.ShloMosaic.Lib.ValueIdx

noncomputable section

namespace Cert.Result

open Idealize.ShloMosaic Idealize.ShloMosaic.ValueIdx

/-- The signed linear layer, entry by entry. -/
def linear (x : (⟨3, ![4, 2048, 4096]⟩ : Shape).Idx → EReal) (w : (⟨2, ![4096, 4096]⟩ : Shape).Idx → EReal)
    (bias : (⟨1, ![4096]⟩ : Shape).Idx → EReal) : (⟨3, ![4, 2048, 4096]⟩ : Shape).Idx → EReal := fun i =>
  (∑ d : Fin 4096, x (ix3 (i 0) (i 1) d) * w (ix2 (i 2) d)) + bias (ix1 (i 2))

theorem linear_apply (x : (⟨3, ![4, 2048, 4096]⟩ : Shape).Idx → EReal) (w : (⟨2, ![4096, 4096]⟩ : Shape).Idx → EReal)
    (bias : (⟨1, ![4096]⟩ : Shape).Idx → EReal) (b : Fin 4) (s : Fin 2048) (o : Fin 4096) :
    linear x w bias (ix3 b s o) = (∑ d : Fin 4096, x (ix3 b s d) * w (ix2 o d)) + bias (ix1 o) := rfl

end Cert.Result

end
-- ==== Proof.Final.lean ====
/-
  From blocks to the whole result.

  The output window is written back only at the last step of each run of 8 points, and what is written back at
  such a point is its 2048 × 1024 tile of one matrix: the whole contraction plus the bias (`regionOut`). The 16
  tiles cover the 8192 × 4096 output: entry (p, o) lies in the tile of row tile `p / 2048` and column tile
  `o / 1024`, written back at point `((p / 2048) * 4 + o / 1024) * 8 + 7`. So the region leaves that matrix in its
  output array, and the host's reshape after the region reads row `b * 2048 + s` as position (b, s): the program's
  result is the signed linear layer of its arguments.
-/
import proofs.«169187_j89489938580100_2_alg».proof.Proof.Invariant
import proofs.«169187_j89489938580100_2_alg».proof.Proof.Entry
import proofs.«169187_j89489938580100_2_alg».proof.Proof.Result

noncomputable section

open Idealize.ShloMosaic Idealize.ShloMosaic.TcCoe Idealize.SL.Sem
open Idealize.ShloMosaic.Pipeline (Dat)

namespace Cert.KernelIdeal.Final

open Cert.KernelIdeal Cert.KernelIdeal.Gen Idealize.ShloMosaic.ValueIdx Cert.Spec Cert.KernelIdeal.Blocks
  Cert.KernelIdeal.Invariant

variable (m : (ℓ : Loc nD τ sig) → Buf (Elt Ideal) ℓ) (ρ : Dev nD → PrngReg)

/-- The matrix the region leaves in its output array. -/
def regionOut (c : Dev nD) : S8192x4096.Idx → EReal := fun i =>
  Spec.out (acts m c) (wts m c) (biasRow m c) (i 0) (i 1)

/-- What a point writes back is its tile of that matrix. -/
theorem flushed_eq (c : Dev nD) (t : Fin cfg0.N) (hf : (cfg0.win 3).flush t = true) :
    (dats m 0 c).flushed 3 t = ((cfg0.win 3).blk t).view.read (Elt Ideal) (regionOut m c) := by
  have h1 : t.val % 8 = 7 := (flush0_3 t).mp hf
  have hN := lt128 t
  obtain ⟨-, -, -, -, -, -, e6, e7⟩ := idx_facts t
  show (cfg0.win 3).cut (grid0.coords t) ((dats m 0 c).after 3 t) = _
  rw [after0_3, output_eq m c t h1]
  funext y
  have hy0 : (y 0).val < 2048 := (y 0).isLt
  have hy1 : (y 1).val < 1024 := (y 1).isLt
  show Spec.out (acts m c) (wts m c) (biasRow m c) (tileRow (rowTile t) (y 0)) (tileCol (colTile t) (y 1))
    = Spec.out (acts m c) (wts m c) (biasRow m c) ((((cfg0.win 3).blk t).view.emb y) 0) ((((cfg0.win 3).blk t).view.emb y) 1)
  have ha : (((cfg0.win 3).blk t).view.emb y) 0 = tileRow (rowTile t) (y 0) := Fin.ext (by
    show win0_3.index t (0 : Fin 2) * 2048 + 1 * (y 0).val = t.val / 32 * 2048 + (y 0).val
    rw [e6]; omega)
  have hb : (((cfg0.win 3).blk t).view.emb y) 1 = tileCol (colTile t) (y 1) := Fin.ext (by
    show win0_3.index t (1 : Fin 2) * 1024 + 1 * (y 1).val = t.val / 8 % 4 * 1024 + (y 1).val
    rw [e7]; omega)
  rw [ha, hb]

/-- An entry of the output is in a point's tile iff each coordinate is in the tile's range on its axis. -/
theorem mem_tile (t : Fin cfg0.N) (i : S8192x4096.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v6).slice (win0_3.rect t)).set ↔ _
  rw [View.set_slice_whole, Rect.mem_set_unit]
  exact Iff.rfl

/-- Every entry of the output is in the tile some point writes back. -/
theorem covered (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 128 := N_0
  obtain ⟨t, ht⟩ : ∃ t : Fin cfg0.N, t.val = ((i 0).val / 2048 * 4 + (i 1).val / 1024) * 8 + 7 :=
    ⟨⟨((i 0).val / 2048 * 4 + (i 1).val / 1024) * 8 + 7, by omega⟩, rfl⟩
  obtain ⟨-, -, -, -, -, -, e6, e7⟩ := idx_facts t
  refine ⟨t, (flush0_3 t).mpr (by omega), ?_⟩
  rw [mem_tile]
  intro a
  match a with
  | ⟨0, _⟩ =>
    show win0_3.index t (0 : Fin 2) * 2048 ≤ (i 0).val ∧ (i 0).val < win0_3.index t (0 : Fin 2) * 2048 + 2048
    rw [e6]; omega
  | ⟨1, _⟩ =>
    show win0_3.index t (1 : Fin 2) * 1024 ≤ (i 1).val ∧ (i 1).val < win0_3.index t (1 : Fin 2) * 1024 + 1024
    rw [e7]; omega

/-- So the region leaves the whole matrix in its output array. -/
theorem final (c : Dev nD) : (dats m 0 c).arrAt 3 cfg0.N = regionOut m c :=
  (dats m 0 c).arrAt_eq_of_cover 3 (regionOut m c) (flushed_eq m c) covered

/-- The program's result: the region's matrix viewed as 4 × 2048 leading positions. -/
def result (c : Dev nD) : S4x2048x4096.Idx → EReal :=
  shapeCast S4x2048x4096 (regionOut m c) shapeCasts_S8192x4096_S4x2048x4096

/-- The host's reshape after the region produces it. -/
theorem tail_eq (c : Dev nD) :
    Pipeline.afterTail₀ cfgs (dats m) 0 (V0 m) [hostOps1] c main_v7 = result m c := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6)
      = regionOut m c :=
    (Pipeline.withArrays_arr spec0 launch0.win.arr_inj c _ _ 3).trans (final m c)
  rw [e]
  rfl

/-- THE KERNEL'S RUN: every weakly fair execution ends with the result array at `result` and the arguments unchanged. -/
theorem run : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-- The result is the signed linear layer of the arguments: row `b * 2048 + s` of the region's matrix is position
    (b, s), the staged activations, weights and bias are the arguments re-laid, and the blocks' total is the whole sum. -/
theorem result_eq (c : Dev nD) :
    result m c = Cert.Result.linear (m ((c : Thread nD τ).loc main_arg0)) (Entry.signedWeights m c)
      (m ((c : Thread nD τ).loc main_arg2)) := by
  funext i
  obtain ⟨b, s, o, rfl⟩ : ∃ (b : Fin 4) (s : Fin 2048) (o : Fin 4096), i = ix3 b s o := ⟨i 0, i 1, i 2, eq_ix3 i⟩
  rw [Cert.Result.linear_apply]
  unfold result
  refine (shapeCast_apply (regionOut m c) shapeCasts_S8192x4096_S4x2048x4096 (ix3 b s o) (ix2 (tileRow b s) o) (by
    rw [Shape.rowMajor_val_two, Shape.rowMajor_val_three]
    show (tileRow b s).val * 4096 + o.val = (b.val * 2048 + s.val) * 4096 + o.val
    rfl)).trans ?_
  show Spec.out (acts m c) (wts m c) (biasRow m c) (tileRow b s) o = _
  unfold Spec.out Spec.dot
  have hA : ∀ d : Fin 4096, acts m c (ix2 (tileRow b s) d) = m ((c : Thread nD τ).loc main_arg0) (ix3 b s d) :=
    fun d => Entry.acts_apply m c (tileRow b s) d b s rfl
  have hW : ∀ d : Fin 4096, wts m c (ix2 d o) = Entry.signedWeights m c (ix2 o d) := fun d => Entry.wts_apply m c d o
  have hB : biasRow m c (ix2 (0 : Fin 1) o) = m ((c : Thread nD τ).loc main_arg2) (ix1 o) := Entry.biasRow_apply m c o
  rw [hB]
  exact congrArg (· + _) (Finset.sum_congr rfl fun d _ => by rw [hA d, hW d])

end Cert.KernelIdeal.Final

end
-- ==== Proof.RefValue.lean ====
/-
  The reference computes the signed linear layer: its contraction over the last axis of the activations and the
  last axis of the signed weights, plus the bias broadcast over the leading positions, read entry by entry.
-/
import proofs.«169187_j89489938580100_2_alg».proof.Proof.Gen.ReferenceIdeal.Read
import proofs.«169187_j89489938580100_2_alg».proof.Proof.Result

noncomputable section

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx

/-- The contraction reads the activations at the entry's position and the contracted index, -/
theorem lidx_eq (i : S4x2048x4096.Idx) (k : Fin 4096) : lidx_main_v1 i k = ix3 (i 0) (i 1) k :=
  funext fun a => Fin.ext (by match a with | ⟨0, _⟩ => rfl | ⟨1, _⟩ => rfl | ⟨2, _⟩ => rfl)

/-- the signed weights at the entry's output column and the contracted index, -/
theorem ridx_eq (i : S4x2048x4096.Idx) (k : Fin 4096) : ridx_main_v1 i k = ix2 (i 2) k :=
  funext fun a => Fin.ext (by match a with | ⟨0, _⟩ => rfl | ⟨1, _⟩ => rfl)

/-- and the bias, through its two broadcasts, at the entry's output column. -/
theorem bidx_eq (i : S4x2048x4096.Idx) : idx_main_v2 (idx_main_v3 i) = ix1 (i 2) :=
  funext fun a => Fin.ext (by match a with | ⟨0, _⟩ => rfl)

/-- The reference's result is the signed linear layer of its arguments. -/
theorem result_eq (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) :
    val_main_v4 (F := Ideal) x0 x1 x2 = Cert.Result.linear x0 (val_main_v0 (F := Ideal) x1) x2 := by
  funext i
  rw [val_main_v4_apply, val_main_v1_apply, val_main_v3_apply, val_main_v2_apply, bidx_eq]
  simp only [lidx_eq, ridx_eq]
  rfl

end Cert.ReferenceIdeal.RefValue

end
-- ==== Proof.lean ====
/-
  A linear layer with sign-quantized weights: for activations `x` of shape [4, 2048, 4096], weights `w` of shape
  [4096, 4096] and a bias of length 4096, the result at position (b, s) and output column o is

      (∑ d, x (b, s, d) · sign (w (o, d))) + bias o.

  The reference computes exactly this: one contraction over d, plus the bias. The kernel lays the activations out as
  8192 rows, transposes the signed weights, and walks a 4 × 4 × 8 grid: for each 2048 × 1024 tile of the output it
  clears a running total, adds the product of one block of 512 contracted positions at each of 8 steps, and at the
  last step writes the total plus the bias. On the extended reals the changes of float format are the identity, the
  cleared total is an exact zero, and the 8 block sums add up to the sum over all 4096 positions: regrouping a
  finite sum needs only associativity and commutativity of addition, which hold with infinite terms too, so the
  finiteness of the inputs is never used.

  The modules: `BlockSums` and `Spec` (the regrouping law and the tile arithmetic), `Cases` and `Payload` (what
  the body leaves in each control case, read at an entry), `Entry` and `Blocks` (the staged arrays in terms of the
  arguments, and which part of them a grid point reads), `Invariant` (the running total after every point, by
  induction along the points), `Final` (from tiles to the whole result, and the kernel's run), `RefValue` (the
  reference, read entry by entry). Both runs end at `Cert.Result.linear` of the same arguments.

  The ideal pass rewrote nothing in the kernel, so the statement that the idealized kernel is the kernel's
  sanctioned idealization has no conjunct to prove.
-/
import proofs.«169187_j89489938580100_2_alg».proof.Defs
import proofs.«169187_j89489938580100_2_alg».proof.Proof.Gen.Kernel
import proofs.«169187_j89489938580100_2_alg».proof.Proof.Gen.Kernel.Skeleton
import proofs.«169187_j89489938580100_2_alg».proof.Proof.Gen.Kernel.Launch
import proofs.«169187_j89489938580100_2_alg».proof.Proof.Gen.Kernel.Points
import proofs.«169187_j89489938580100_2_alg».proof.Proof.Gen.Kernel.Frame
import proofs.«169187_j89489938580100_2_alg».proof.Proof.Gen.KernelIdeal
import proofs.«169187_j89489938580100_2_alg».proof.Proof.Gen.KernelIdeal.Skeleton
import proofs.«169187_j89489938580100_2_alg».proof.Proof.Gen.KernelIdeal.Launch
import proofs.«169187_j89489938580100_2_alg».proof.Proof.Gen.KernelIdeal.Points
import proofs.«169187_j89489938580100_2_alg».proof.Proof.Gen.KernelIdeal.Frame
import proofs.«169187_j89489938580100_2_alg».proof.Proof.Gen.ReferenceIdeal
import proofs.«169187_j89489938580100_2_alg».proof.Proof.Gen.Pre_finite_inputs
import proofs.«169187_j89489938580100_2_alg».proof.Proof.Gen.ReferenceIdeal.Run
import proofs.«169187_j89489938580100_2_alg».proof.Proof.Gen.ReferenceIdeal.Read
import proofs.«169187_j89489938580100_2_alg».proof.Proof.Final
import proofs.«169187_j89489938580100_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals: nothing to show. -/
theorem preserves : Cert.preserves_Kernel_KernelIdeal := trivial

/-- From arguments that agree, the kernel's result array and the reference's both end at the signed linear layer of
    the arguments: the kernel's by its blockwise running totals, the reference's by its one contraction. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq, (hagree c).1, (hagree c).2.1,
    (hagree c).2.2]
  exact (Cert.KernelIdeal.Final.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
